-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S128x128x32 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel

variable [Facts]

def fn {F : FTy → Type} [FloatOps F] (main_arg0 : FVec F S4x4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  main_v3
-- ==== Kernel.lean ====
abbrev S4x4096x4096 : Shape := ⟨3, ![4, 4096, 4096]⟩
abbrev S16384x128x32 : Shape := ⟨3, ![16384, 128, 32]⟩
abbrev S1x128 : Shape := ⟨2, ![1, 128]⟩
abbrev S256x128x32 : Shape := ⟨3, ![256, 128, 32]⟩
abbrev S256x128 : Shape := ⟨2, ![256, 128]⟩
abbrev S128 : Shape := ⟨1, ![128]⟩
abbrev S_ : Shape := ⟨0, ![]⟩
abbrev S1x128x1 : Shape := ⟨3, ![1, 128, 1]⟩
abbrev S128x128x32 : Shape := ⟨3, ![128, 128, 32]⟩

abbrev nBuf : Space → Nat
  | .hbm => 31
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S16384x128x32, .f32⟩
  | .hbm, ⟨2, _⟩ => ⟨S1x128, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .i1⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .i1⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128x1, .f32⟩
  | .hbm, ⟨29, _⟩ => ⟨S16384x128x32, .f32⟩
  | .hbm, ⟨30, _⟩ => ⟨S4x4096x4096, .f32⟩
  | .local _ .vmem, ⟨0, _⟩ => ⟨S256x128x32, .f32⟩
  | .local _ .vmem, ⟨1, _⟩ => ⟨S256x128x32, .f32⟩
  | .local _ .vmem, ⟨2, _⟩ => ⟨S1x128, .f32⟩
  | .local _ .vmem, ⟨3, _⟩ => ⟨S128x128x32, .f32⟩
  | .local _ .vmem, ⟨4, _⟩ => ⟨S128x128x32, .f32⟩
  | .local _ .vmem, ⟨5, _⟩ => ⟨S1x128x1, .f32⟩
  | .local _ .vmem, ⟨6, _⟩ => ⟨S128x128x32, .f32⟩
  | .local _ .vmem, ⟨7, _⟩ => ⟨S128x128x32, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x128x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x128x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S4x4096x4096_S16384x128x32 : S4x4096x4096.ShapeCasts S16384x128x32
  inb_S1x128_S1x128_0_0 : ∀ a, (![0, 0] : Fin 2 → Nat) a + S1x128.size a ≤ S1x128.size a
  h_S1x128 : 0 < S1x128.numel
  inb_S256x128x32_S256x128x32_0_0_0 : ∀ a, (![0, 0, 0] : Fin 3 → Nat) a + S256x128x32.size a ≤ S256x128x32.size a
  h_S256x128x32 : 0 < S256x128x32.numel
  shapeCasts_S256x128x32_S256x128x32 : S256x128x32.ShapeCasts S256x128x32
  reduces_S256x128x32_S256x128 : S256x128x32.Reduces [2] S256x128
  reduces_S256x128_S128 : S256x128.Reduces [0] S128
  shapeCasts_S128_S1x128 : S128.ShapeCasts S1x128
  shapeCasts_S1x128_S1x128 : S1x128.ShapeCasts S1x128
  shapeCasts_S1x128_S128 : S1x128.ShapeCasts S128
  bcast_S_S128 : S_.BroadcastsInDim S128 (![] : Fin 0 → Fin S128.rank)
  shapeCasts_S128_S1x128x1 : S128.ShapeCasts S1x128x1
  inb_S128x128x32_S128x128x32_0_0_0 : ∀ a, (![0, 0, 0] : Fin 3 → Nat) a + S128x128x32.size a ≤ S128x128x32.size a
  h_S128x128x32 : 0 < S128x128x32.numel
  shapeCasts_S128x128x32_S128x128x32 : S128x128x32.ShapeCasts S128x128x32
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  broadcasts_S1x128x1_S128x128x32 : S1x128x1.Broadcasts S128x128x32
  shapeCasts_S16384x128x32_S4x4096x4096 : S16384x128x32.ShapeCasts S4x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x32.size a ≤ S16384x128x32.size a
  hwx0_0 : ∀ i : grid0.Coords, EltTy.bits .f32 = 32 ∨ (Rect.block (s := S16384x128x32) S256x128x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128x32.size a ≤ S16384x128x32.size a
  hwx1_0 : ∀ i : grid1.Coords, EltTy.bits .f32 = 32 ∨ (Rect.block (s := S16384x128x32) S128x128x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128x1.size a ≤ S1x128x1.size a
  hwx1_1 : ∀ i : grid1.Coords, EltTy.bits .f32 = 32 ∨ (Rect.block (s := S1x128x1) S1x128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128x32.size a ≤ S16384x128x32.size a
  hwx1_2 : ∀ i : grid1.Coords, EltTy.bits .f32 = 32 ∨ (Rect.block (s := S16384x128x32) S128x128x32.size (cc1_transform_2 i) (hinb1_2 i)).WholeWords (EltTy.packing .f32)

variable [Facts₀]

abbrev win0_0 : Pipeline.Window sig grid0 :=
  Pipeline.Window.ofSpec (Memref.whole main_v0) S256x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x128x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S128x128x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x4096 : Shape := ⟨3, ![4, 4096, 4096]⟩
abbrev S4x4096x128x32 : Shape := ⟨4, ![4, 4096, 128, 32]⟩
abbrev S_ : Shape := ⟨0, ![]⟩
abbrev S128 : Shape := ⟨1, ![128]⟩
abbrev S128x1 : Shape := ⟨2, ![128, 1]⟩
abbrev S1x1x128x1 : Shape := ⟨4, ![1, 1, 128, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x128x32, .f32⟩
  | .hbm, ⟨2, _⟩ => ⟨S4x4096x128x32, .f32⟩
  | .hbm, ⟨3, _⟩ => ⟨S_, .f32⟩
  | .hbm, ⟨4, _⟩ => ⟨S128, .f32⟩
  | .hbm, ⟨5, _⟩ => ⟨S_, .f32⟩
  | .hbm, ⟨6, _⟩ => ⟨S128, .f32⟩
  | .hbm, ⟨7, _⟩ => ⟨S128, .i1⟩
  | .hbm, ⟨8, _⟩ => ⟨S_, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .i1⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S128, .f32⟩
  | .hbm, ⟨29, _⟩ => ⟨S128x1, .f32⟩
  | .hbm, ⟨30, _⟩ => ⟨S4x4096x128x32, .f32⟩
  | .hbm, ⟨31, _⟩ => ⟨S1x1x128x1, .f32⟩
  | .hbm, ⟨32, _⟩ => ⟨S4x4096x128x32, .f32⟩
  | .hbm, ⟨33, _⟩ => ⟨S4x4096x128x32, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x4096x128x32, .f32⟩
  | .hbm, ⟨38, _⟩ => ⟨S4x4096x128x32, .f32⟩
  | .hbm, ⟨39, _⟩ => ⟨S_, .f32⟩
  | .hbm, ⟨40, _⟩ => ⟨S4x4096x128x32, .f32⟩
  | .hbm, ⟨41, _⟩ => ⟨S4x4096x128x32, .f32⟩
  | .hbm, ⟨42, _⟩ => ⟨S_, .f32⟩
  | .hbm, ⟨43, _⟩ => ⟨S4x4096x128x32, .f32⟩
  | .hbm, ⟨44, _⟩ => ⟨S4x4096x128x32, .f32⟩
  | .hbm, ⟨45, _⟩ => ⟨S4x4096x128x32, .f32⟩
  | .hbm, ⟨46, _⟩ => ⟨S_, .f32⟩
  | .hbm, ⟨47, _⟩ => ⟨S4x4096x128x32, .f32⟩
  | .hbm, ⟨48, _⟩ => ⟨S4x4096x128x32, .f32⟩
  | .hbm, ⟨49, _⟩ => ⟨S4x4096x128x32, .f32⟩
  | .hbm, ⟨50, _⟩ => ⟨S1x1x128x1, .f32⟩
  | .hbm, ⟨51, _⟩ => ⟨S4x4096x128x32, .f32⟩
  | .hbm, ⟨52, _⟩ => ⟨S4x4096x128x32, .f32⟩
  | .hbm, ⟨53, _⟩ => ⟨S4x4096x128x32, .f32⟩
  | .hbm, ⟨54, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]

class Facts₀ : Prop where
  shapeCasts_S4x4096x4096_S4x4096x128x32 : S4x4096x4096.ShapeCasts S4x4096x128x32
  reducesTo_S4x4096x128x32_S128_d0_1_3 : S4x4096x128x32.ReducesTo [0, 1, 3] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S1x1x128x1_2_3 : S128x1.BroadcastsInDim S1x1x128x1 (![2, 3] : Fin 2 → Fin S1x1x128x1.rank)
  bcast_S1x1x128x1_S4x4096x128x32_0_1_2_3 : S1x1x128x1.BroadcastsInDim S4x4096x128x32 (![0, 1, 2, 3] : Fin 4 → Fin S4x4096x128x32.rank)
  bcast_S_S4x4096x128x32 : S_.BroadcastsInDim S4x4096x128x32 (![] : Fin 0 → Fin S4x4096x128x32.rank)
  shapeCasts_S4x4096x128x32_S4x4096x4096 : S4x4096x128x32.ShapeCasts S4x4096x4096

variable [Facts₀]

class Facts : Prop extends Facts₀ where

variable [Facts]
-- ==== Proof.Boundary.lean ====
/-
  The idealized kernel's run, with every buffer named.

  @main is nine segments: a reshape of the argument to [16384, 128, 32]; the first pallas_call (the per-group
  maximum of |x|, carried over 64 grid points); twenty-six host operations that turn the 128 maxima into the
  exponents floor(log2 max) and the scales 2^exponent; the second pallas_call (the pointwise quantization, 128
  grid points); a reshape of its result back to [4, 4096, 4096].  The frame certificate folds the buffer
  contents through these segments: `Gen.W9 m ρ c` is what every unscoped buffer of core `c` holds at the
  return.  Here the launch theorem for a program of several regions is applied to the same segments, and the
  final state is read at the two result buffers and at the argument: every weakly fair execution ends with
  `main_v19` and `main_v13` at `W9`'s contents and the argument as launched.
-/
import proofs.«134607_j88175678587515_2_alg».proof.Proof.Gen.KernelIdeal.Frame

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both results at the last boundary's
    contents and the argument array as launched. -/
theorem run_named : θ_run defs (onTc (τ := τ) (main (F := F))) ⟨m, fun _ => 0, ρ⟩ (fun r => ∀ c : Dev nD,
      r.2.mem ((c.tc : Thread nD τ).loc main_v19) = W9 m ρ c (Proc.devRef .tc main_v19)
      ∧ r.2.mem ((c.tc : Thread nD τ).loc main_v13) = W9 m ρ c (Proc.devRef .tc main_v13)
      ∧ r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v19 (by decide)), h c _ (mem_uc main_v13 (by decide)),
        (h c _ (mem_uc main_arg0 (by decide))).trans (W9_main_arg0 m ρ c)⟩)

end Cert.KernelIdeal.Boundary

end
-- ==== Proof.Spec.lean ====
/-
  The quantizer's mathematics, stated once, away from both programs.

  For a group g (one of 128 runs of 32 consecutive entries of the last axis) let A(g) be the maximum of |x| over
  every entry of the group, in every row.  Both programs compute
      e(g) = floor(log A(g) / log 2)   if A(g) > 0, else 0          (`exponents`)
      s(g) = exp(ln2 · e(g))                                          (`scales`; ln2 the f32 word 0x3F317218)
  and, entry by entry,
      q(x, s) = (sign x · s) · (roundeven(min(1, max(0, |x| / s)) · 8) / 8)      (`quant`).
  The two programs spell the sign differently: the reference applies the host's sign function; the kernel takes
  1 with the sign of x where |x| > 0 and x itself elsewhere.  On the extended reals these are one function
  (`sign_select`): at ±∞ both give ±1, at a nonzero real ±1 by its sign, and at 0 the kernel's "x itself" is 0.
-/
import Idealize.ShloMosaic.PureOps
import Idealize.ShloMosaic.PureOps.Ideal
import Idealize.ShloMosaic.PureOps.IdealRules
import Idealize.ShloMosaic.Lib.ValueIdx

noncomputable section

namespace Cert.Spec

open Idealize.ShloMosaic

abbrev S_ : Shape := ⟨0, ![]⟩
abbrev S128 : Shape := ⟨1, ![128]⟩

/-- The exponents of the 128 group maxima `A`: floor(log A / log 2) where A > 0, else 0 — the host operations of
    both programs, in their order (a `where` prints as a select against a broadcast scalar). -/
def exponents (hb : S_.BroadcastsInDim S128 (![] : Fin 0 → Fin S128.rank)) (A : FVec Ideal S128 .f32) : FVec Ideal S128 .f32 :=
  select (cmpf .ogt A (broadcastInDim S128 ![] hb (constant (F := Ideal) S_ .f32 0x00000000#32)))
    (Host.floor (Host.divf
      (Host.log (select (cmpf .ogt A (broadcastInDim S128 ![] hb (constant (F := Ideal) S_ .f32 0x00000000#32))) A
        (broadcastInDim S128 ![] hb (id (constant (F := Ideal) S_ .f32 0x3F800000#32)))))
      (broadcastInDim S128 ![] hb (Host.log (constant (F := Ideal) S_ .f32 0x40000000#32)))))
    (broadcastInDim S128 ![] hb (id (constant (F := Ideal) S_ .f32 0x00000000#32)))

/-- The scales 2^e, computed as exp(ln2 · e) with ln2 the f32 word both programs carry. -/
def scales (hb : S_.BroadcastsInDim S128 (![] : Fin 0 → Fin S128.rank)) (E : FVec Ideal S128 .f32) : FVec Ideal S128 .f32 :=
  Host.exp (mulf (broadcastInDim S128 ![] hb (constant (F := Ideal) S_ .f32 0x3F317218#32)) E)

/-- One entry quantized against its group's scale. -/
def quant (x s : EReal) : EReal :=
  (Ideal.sign x * s) *
    Ideal.div (Ideal.liftRound Ideal.roundHalfEven
      (min (Ideal.ofBits .f32 0x3F800000#32) (max (Ideal.ofBits .f32 0x00000000#32) (Ideal.div (max x (-x)) s))
        * Ideal.ofBits .f32 0x41000000#32)) (Ideal.ofBits .f32 0x41000000#32)

/-- The kernel's spelling of the sign — where |x| > 0, −1 below zero and 1 otherwise; where not, x itself — is the
    sign function on every extended real. -/
theorem sign_select (x : EReal) :
    Scalar.select (Ideal.cmp .ogt (max x (-x)) (Ideal.ofBits .f32 0x00000000#32))
      (Scalar.select (Ideal.cmp .olt x (Ideal.ofBits .f32 0x00000000#32)) (Ideal.ofBits .f32 0xBF800000#32) (Ideal.ofBits .f32 0x3F800000#32)) x
      = Ideal.sign x := by
  have h0 : Ideal.ofBits .f32 0x00000000#32 = 0 := IdealRules.sign_bit.ideal_zero .f32
  have h1 : Ideal.ofBits .f32 0x3F800000#32 = 1 := IdealRules.sign_bit.ideal_onePat .f32
  have hm : Ideal.ofBits .f32 0xBF800000#32 = -1 := IdealRules.sign_bit.ideal_negOnePat .f32
  rw [h0, h1, hm]
  induction x using EReal.rec with
  | bot => simp [Ideal.cmp, Scalar.select]
  | top => simp [Ideal.cmp, Scalar.select]
  | coe r =>
    rcases lt_trichotomy r 0 with h | h | h
    · have hr : ((r : ℝ) : EReal) < 0 := by exact_mod_cast h
      have hn : (0 : EReal) < max (r : EReal) (-(r : EReal)) := lt_max_of_lt_right (by simpa using hr)
      simp [Ideal.cmp, Scalar.select, hr, hn, sign_neg h]
    · subst h
      have hs : Ideal.sign ((0 : ℝ) : EReal) = 0 := by rw [Ideal.sign_coe]; simp
      rw [EReal.coe_zero] at hs
      simp [Ideal.cmp, Scalar.select, hs]
    · have hr : (0 : EReal) < ((r : ℝ) : EReal) := by exact_mod_cast h
      have hn : (0 : EReal) < max (r : EReal) (-(r : EReal)) := lt_max_of_lt_left hr
      have hnl : ¬ ((r : ℝ) : EReal) < 0 := not_lt.mpr hr.le
      simp [Ideal.cmp, Scalar.select, hn, hnl, sign_pos h]

end Cert.Spec

end
-- ==== Proof.Quantize.lean ====
/-
  The second pallas_call: the pointwise quantization, as one function of its two input arrays.

  The grid has 128 points; point t loads rows 128·t … 128·t+127 of the [16384, 128, 32] input (all 128 groups, all 32
  lanes) and the whole [1, 128, 1] array of scales, and stores the same rows of the output.  The body broadcasts the
  scale of group g over rows and lanes and applies the quantizer `Spec.quant` entry by entry; the only step that is
  not a change of spelling is the sign, which the body builds from two comparisons (`Spec.sign_select`).  So what
  point t writes back is block t of ONE whole-array function `Q` of the two arrays as the region finds them, the 128
  blocks tile the rows, and the output array ends at `Q`.
-/
import proofs.«134607_j88175678587515_2_alg».proof.Proof.Gen.KernelIdeal.Frame
import proofs.«134607_j88175678587515_2_alg».proof.Proof.Spec
import Idealize.ShloMosaic.Lib.Pipeline.Value
import Idealize.ShloMosaic.Lib.ValueIdx
import Idealize.ShloMosaic.PureOps.Ideal

noncomputable section

namespace Cert.KernelIdeal.Quantize

open Idealize.ShloMosaic Idealize.ShloMosaic.TcCoe Idealize.SL.Sem Idealize.ShloMosaic.ValueIdx
open Idealize.ShloMosaic.Pipeline (Dat)
open Cert.KernelIdeal Cert.KernelIdeal.Gen

/-! ## The body's arithmetic at an index -/

theorem absf_at {s : Shape} {φ : FTy} (a : FVec Ideal s φ) (i : s.Idx) : absf a i = max (a i) (-(a i)) := rfl
theorem roundeven_at {s : Shape} {φ : FTy} (a : FVec Ideal s φ) (i : s.Idx) :
    roundeven a i = Ideal.liftRound Ideal.roundHalfEven (a i) := rfl

/-- The stored value at row a, group g, lane l: the entry quantized against group g's scale. -/
theorem pay_ix3 (x0 : Vec Ideal S128x128x32 .f32) (x1 : Vec Ideal S1x128x1 .f32) (a : Fin 128) (g : Fin 128) (l : Fin 32) :
    k1_pay1 (F := Ideal) x0 x1 (ix3 a g l) = Spec.quant (x0 (ix3 a g l)) (x1 (ix3 0 g 0)) := by
  have hb : broadcastTo S128x128x32 x1 broadcasts_S1x128x1_S128x128x32 (ix3 a g l) = x1 (ix3 0 g 0) :=
    broadcastTo_apply x1 _ (ix3 a g l) (ix3 0 g 0) (fun d => by match d with | ⟨0,_⟩ => rfl | ⟨1,_⟩ => rfl | ⟨2,_⟩ => rfl)
  unfold k1_pay1
  simp only [shapeCast_self, mulf_apply, divf_apply, maximumf_apply, minimumf_apply, select_apply, cmpf_apply, broadcast_apply,
    constant_apply, absf_at, roundeven_at, hb]
  unfold Spec.quant
  rw [← Spec.sign_select (x0 (ix3 a g l))]
  rfl

theorem pay_apply (x0 : Vec Ideal S128x128x32 .f32) (x1 : Vec Ideal S1x128x1 .f32) (j : S128x128x32.Idx) :
    k1_pay1 (F := Ideal) x0 x1 j = Spec.quant (x0 j) (x1 (ix3 0 (j 1) 0)) := by
  obtain ⟨a, g, l, rfl⟩ : ∃ (a : Fin 128) (g : Fin 128) (l : Fin 32), j = ix3 a g l := ⟨j 0, j 1, j 2, eq_ix3 j⟩
  exact pay_ix3 x0 x1 a g l

/-! ## From blocks to the array -/

variable (V : (c : Dev nD) → (b : Ref sig .tc) → Buf (Elt Ideal) ((c : Thread nD τ).loc b))

/-- The quantized array: every entry against the scale of its group (the middle coordinate). -/
def Q (x : S16384x128x32.Idx → Elt Ideal .f32) (s : S1x128x1.Idx → Elt Ideal .f32) : S16384x128x32.Idx → Elt Ideal .f32 :=
  fun i => Spec.quant (x i) (s (ix3 0 (i 1) 0))

theorem zero3 : (![0, 0, 0] : Fin 3 → Nat) = fun _ => 0 := funext fun a => by fin_cases a <;> rfl

/-- The printed index maps over the grid: the input's and the output's row block is the point, the scales' block is
    the whole array, the other axes are not blocked. -/
theorem block_indices : ∀ t : Fin cfg1.N, win1_0.index t (0 : Fin 3) = t.val ∧ win1_0.index t (1 : Fin 3) = 0
    ∧ win1_0.index t (2 : Fin 3) = 0 ∧ win1_2.index t (0 : Fin 3) = t.val ∧ win1_2.index t (1 : Fin 3) = 0
    ∧ win1_2.index t (2 : Fin 3) = 0 ∧ win1_1.index t (0 : Fin 3) = 0 ∧ win1_1.index t (1 : Fin 3) = 0
    ∧ win1_1.index t (2 : Fin 3) = 0 :=
  (by decide +kernel : ∀ t : Fin grid1.N, _)

/-- What point t writes back is block t of `Q` of the two arrays as the region finds them. -/
theorem flushed_eq (c : Dev nD) (t : Fin cfg1.N) :
    (dat1 (F := Ideal) V c).flushed 2 t
      = ((cfg1.win 2).blk t).view.read (Elt Ideal) (Q (V c main_v0) (V c main_v17)) := by
  show (cfg1.win 2).cut (grid1.coords t) ((dat1 V c).after 2 t) = _
  rw [after1_2]
  unfold out1_2
  rw [View.canon_unit_zero zero3]
  simp only [View.ld_unit_zero (S := S128x128x32) zero3, View.ld_unit_zero (S := S1x128x1) zero3]
  obtain ⟨e0, e1, e2, e3, e4, e5, e6, e7, e8⟩ := block_indices t
  funext j
  refine (pay_apply _ _ j).trans ?_
  show Spec.quant (V c main_v0 (((cfg1.win 0).blk t).view.emb j)) (V c main_v17 (((cfg1.win 1).blk t).view.emb (ix3 0 (j 1) 0)))
    = Spec.quant (V c main_v0 (((cfg1.win 2).blk t).view.emb j)) (V c main_v17 (ix3 0 ((((cfg1.win 2).blk t).view.emb j) 1) 0))
  have h0 : ((cfg1.win 0).blk t).view.emb j = ((cfg1.win 2).blk t).view.emb j := by
    funext a; apply Fin.ext
    match a with
    | ⟨0, _⟩ => show win1_0.index t (0 : Fin 3) * 128 + 1 * (j 0).val = win1_2.index t (0 : Fin 3) * 128 + 1 * (j 0).val; omega
    | ⟨1, _⟩ => show win1_0.index t (1 : Fin 3) * 128 + 1 * (j 1).val = win1_2.index t (1 : Fin 3) * 128 + 1 * (j 1).val; omega
    | ⟨2, _⟩ => show win1_0.index t (2 : Fin 3) * 32 + 1 * (j 2).val = win1_2.index t (2 : Fin 3) * 32 + 1 * (j 2).val; omega
  have h1 : ((cfg1.win 1).blk t).view.emb (ix3 0 (j 1) 0) = ix3 0 ((((cfg1.win 2).blk t).view.emb j) 1) 0 := by
    funext a; apply Fin.ext
    match a with
    | ⟨0, _⟩ => show win1_1.index t (0 : Fin 3) * 1 + 1 * 0 = 0; omega
    | ⟨1, _⟩ => show win1_1.index t (1 : Fin 3) * 128 + 1 * (j 1).val = win1_2.index t (1 : Fin 3) * 128 + 1 * (j 1).val; omega
    | ⟨2, _⟩ => show win1_1.index t (2 : Fin 3) * 1 + 1 * 0 = 0; omega
  rewrite [h0, h1]
  rfl

/-- An index is in point t's block iff each coordinate is in the block's range on its axis. -/
theorem mem_block (t : Fin cfg1.N) (i : S16384x128x32.Idx) :
    i ∈ ((cfg1.win 2).blk t).view.set ↔ ∀ a : Fin 3, win1_2.index t a * S128x128x32.size a ≤ (i a).val
      ∧ (i a).val < win1_2.index t a * S128x128x32.size a + S128x128x32.size a := by
  show i ∈ ((View.whole main_v18).slice (win1_2.rect t)).set ↔ _
  rw [View.set_slice_whole, Rect.mem_set_unit]
  exact Iff.rfl

/-- Row r is in the block of point r / 128, which is written back. -/
theorem covered (i : S16384x128x32.Idx) :
    ∃ t : Fin cfg1.N, (cfg1.win 2).flush t = true ∧ i ∈ ((cfg1.win 2).blk t).view.set := by
  have hi0 : (i 0).val < 16384 := (i 0).isLt
  have hi1 : (i 1).val < 128 := (i 1).isLt
  have hi2 : (i 2).val < 32 := (i 2).isLt
  have hN : cfg1.N = 128 := N_1
  have ht : (i 0).val / 128 < cfg1.N := by rw [hN]; omega
  refine ⟨⟨(i 0).val / 128, ht⟩, flush1_2 _, ?_⟩
  rw [mem_block]
  obtain ⟨e0, e1, e2, e3, e4, e5, e6, e7, e8⟩ := block_indices ⟨(i 0).val / 128, ht⟩
  have e3' : win1_2.index ⟨(i 0).val / 128, ht⟩ (0 : Fin 3) = (i 0).val / 128 := e3
  intro a
  match a with
  | ⟨0, _⟩ =>
    show win1_2.index ⟨(i 0).val / 128, ht⟩ (0 : Fin 3) * 128 ≤ (i 0).val
      ∧ (i 0).val < win1_2.index ⟨(i 0).val / 128, ht⟩ (0 : Fin 3) * 128 + 128
    omega
  | ⟨1, _⟩ =>
    show win1_2.index ⟨(i 0).val / 128, ht⟩ (1 : Fin 3) * 128 ≤ (i 1).val
      ∧ (i 1).val < win1_2.index ⟨(i 0).val / 128, ht⟩ (1 : Fin 3) * 128 + 128
    omega
  | ⟨2, _⟩ =>
    show win1_2.index ⟨(i 0).val / 128, ht⟩ (2 : Fin 3) * 32 ≤ (i 2).val
      ∧ (i 2).val < win1_2.index ⟨(i 0).val / 128, ht⟩ (2 : Fin 3) * 32 + 32
    omega

/-- The output array after the region: `Q` of the input array and the scales as the region finds them. -/
theorem final (c : Dev nD) : (dat1 (F := Ideal) V c).arrAt 2 cfg1.N = Q (V c main_v0) (V c main_v17) :=
  (dat1 (F := Ideal) V c).arrAt_eq_of_cover 2 _ (fun t _ => flushed_eq V c t) covered

end Cert.KernelIdeal.Quantize

end
-- ==== Proof.KernelRead.lean ====
/-
  The kernel's two results, read back through the segments of its run.

  The last boundary's contents `W9` are a fold: the launch memory, a reshape, the first region's write-backs, twenty-six
  host operations, the second region's write-backs, a reshape.  Read back one segment at a time:
    · the quantized result is the [4, 4096, 4096] reshape of the second region's output array, which is `Quantize.Q`
      of the reshaped argument and of the scales, the scales being `Spec.scales` of the exponents, reshaped to [1, 128, 1];
    · the exponents are `Spec.exponents` of the first region's [1, 128] output array reshaped to [128];
    · the reshaped argument reaches the second region as the first reshape left it: the first region only reads it
      (an input window's array is never written back) and no host operation in between writes it.
-/
import proofs.«134607_j88175678587515_2_alg».proof.Proof.Boundary
import proofs.«134607_j88175678587515_2_alg».proof.Proof.Quantize
import proofs.«134607_j88175678587515_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen
open Idealize.ShloMosaic.ValueIdx

variable (m : (ℓ : Loc nD τ sig) → Buf (Elt Ideal) ℓ) (ρ : Dev nD → PrngReg)

/-- The first region's [1, 128] output array, reshaped to [128]: the per-group maxima as the host operations read them. -/
def maxima (c : Dev nD) : FVec Ideal S128 .f32 :=
  shapeCast S128 (W2 m ρ c (Proc.devRef .tc main_v1)) shapeCasts_S1x128_S128

set_option maxHeartbeats 1000000 in
/-- The exponents' buffer when the second region is entered. -/
theorem entry_exponents (c : Dev nD) :
    W7 m ρ c (Proc.devRef .tc main_v13) = Spec.exponents bcast_S_S128 (maxima m ρ c) := by
  dsimp only [W7, W6, W5, W4, W3]
  after_results
  rfl

set_option maxHeartbeats 1000000 in
/-- The scales' buffer when the second region is entered. -/
theorem entry_scales (c : Dev nD) :
    W7 m ρ c (Proc.devRef .tc main_v17)
      = shapeCast S1x128x1 (Spec.scales bcast_S_S128 (Spec.exponents bcast_S_S128 (maxima m ρ c))) shapeCasts_S128_S1x128x1 := by
  dsimp only [W7, W6, W5, W4, W3]
  after_results
  rfl

set_option maxHeartbeats 1000000 in
/-- The reshaped argument when the second region is entered: as the first reshape left it. -/
theorem entry_input (c : Dev nD) :
    W7 m ρ c (Proc.devRef .tc main_v0) = W1 m ρ c (Proc.devRef .tc main_v0) := by
  dsimp only [W7, W6, W5, W4, W3]
  after_results
  rw [show W2 m ρ c (Proc.devRef .tc main_v0) = (dat0 (V1 m ρ) c).arrAt 0 cfg0.N from W2_arr m ρ c 0,
    (dat0 (V1 m ρ) c).arrAt_in 0 rfl]
  rfl

set_option maxHeartbeats 1000000 in
/-- The first reshape: the argument as a [16384, 128, 32] array. -/
theorem reshaped_input (c : Dev nD) :
    W1 m ρ c (Proc.devRef .tc main_v0)
      = shapeCast S16384x128x32 (m ((c.tc : Thread nD τ).loc main_arg0)) shapeCasts_S4x4096x4096_S16384x128x32 := by
  show after hostOps0 (W0 m ρ c) (Proc.devRef .tc main_v0) = _
  after_results
  rfl

set_option maxHeartbeats 1000000 in
/-- The quantized result: the reshape of the second region's output array. -/
theorem result_output (c : Dev nD) :
    W9 m ρ c (Proc.devRef .tc main_v19)
      = shapeCast S4x4096x4096 (Quantize.Q (V7 m ρ c main_v0) (V7 m ρ c main_v17)) shapeCasts_S16384x128x32_S4x4096x4096 := by
  show after hostOps2 (W8 m ρ c) (Proc.devRef .tc main_v19) = _
  after_results
  rw [show W8 m ρ c (Proc.devRef .tc main_v18) = (dat1 (V7 m ρ) c).arrAt 2 cfg1.N from W8_arr m ρ c 2, Quantize.final]
  rfl

set_option maxHeartbeats 1000000 in
/-- The exponents result: untouched by the second region and the last reshape. -/
theorem result_exponents (c : Dev nD) :
    W9 m ρ c (Proc.devRef .tc main_v13) = Spec.exponents bcast_S_S128 (maxima m ρ c) := by
  rw [← entry_exponents]
  show after hostOps2 (W8 m ρ c) (Proc.devRef .tc main_v13) = _
  after_results
  exact W8_of_ne m ρ c main_v13 (by decide)

/-! ## The quantized result, entry by entry -/

/-- The two regions' input array is the argument reshaped. -/
theorem input_array (c : Dev nD) :
    V7 m ρ c main_v0 = shapeCast S16384x128x32 (m ((c.tc : Thread nD τ).loc main_arg0)) shapeCasts_S4x4096x4096_S16384x128x32 :=
  (entry_input m ρ c).trans (reshaped_input m ρ c)

/-- The second region's scales array is the scales reshaped to [1, 128, 1]. -/
theorem scales_array (c : Dev nD) :
    V7 m ρ c main_v17
      = shapeCast S1x128x1 (Spec.scales bcast_S_S128 (Spec.exponents bcast_S_S128 (maxima m ρ c))) shapeCasts_S128_S1x128x1 :=
  entry_scales m ρ c

/-- Entry (b, r, k) of the result is the quantizer applied to entry (b, r, k) of the argument and to the scale of group
    k / 32: the reshape to [16384, 128, 32] puts it at row 4096·b + r, group k / 32, lane k % 32, and the reshape back
    returns it. -/
theorem output_at (c : Dev nD) (i : S4x4096x4096.Idx) (hg : (i 2).val / 32 < 128) :
    W9 m ρ c (Proc.devRef .tc main_v19) i
      = Spec.quant (m ((c.tc : Thread nD τ).loc main_arg0) i)
          (Spec.scales bcast_S_S128 (Spec.exponents bcast_S_S128 (maxima m ρ c)) (ix1 ⟨(i 2).val / 32, hg⟩)) := by
  have h0 : (i 0).val < 4 := (i 0).isLt
  have h1 : (i 1).val < 4096 := (i 1).isLt
  have h2 : (i 2).val < 4096 := (i 2).isLt
  have hN : (i 0).val * 4096 + (i 1).val < 16384 := by omega
  have hl : (i 2).val % 32 < 32 := Nat.mod_lt _ (by norm_num)
  rw [result_output]
  refine (shapeCast_apply _ shapeCasts_S16384x128x32_S4x4096x4096 i
    (ix3 ⟨(i 0).val * 4096 + (i 1).val, hN⟩ ⟨(i 2).val / 32, hg⟩ ⟨(i 2).val % 32, hl⟩) ?_).trans ?_
  · rw [Shape.rowMajor_val_three, Shape.rowMajor_val_three]
    show (((i 0).val * 4096 + (i 1).val) * 128 + (i 2).val / 32) * 32 + (i 2).val % 32 = ((i 0).val * 4096 + (i 1).val) * 4096 + (i 2).val
    omega
  · show Spec.quant (V7 m ρ c main_v0 (ix3 ⟨(i 0).val * 4096 + (i 1).val, hN⟩ ⟨(i 2).val / 32, hg⟩ ⟨(i 2).val % 32, hl⟩))
        (V7 m ρ c main_v17 (ix3 0 ⟨(i 2).val / 32, hg⟩ 0)) = _
    rw [input_array, scales_array]
    have eX : shapeCast S16384x128x32 (m ((c.tc : Thread nD τ).loc main_arg0)) shapeCasts_S4x4096x4096_S16384x128x32
        (ix3 ⟨(i 0).val * 4096 + (i 1).val, hN⟩ ⟨(i 2).val / 32, hg⟩ ⟨(i 2).val % 32, hl⟩) = m ((c.tc : Thread nD τ).loc main_arg0) i :=
      shapeCast_apply _ shapeCasts_S4x4096x4096_S16384x128x32 _ i (by
        rw [Shape.rowMajor_val_three, Shape.rowMajor_val_three]
        show ((i 0).val * 4096 + (i 1).val) * 4096 + (i 2).val = (((i 0).val * 4096 + (i 1).val) * 128 + (i 2).val / 32) * 32 + (i 2).val % 32
        omega)
    have eS : shapeCast S1x128x1 (Spec.scales bcast_S_S128 (Spec.exponents bcast_S_S128 (maxima m ρ c))) shapeCasts_S128_S1x128x1
        (ix3 0 ⟨(i 2).val / 32, hg⟩ 0) = Spec.scales bcast_S_S128 (Spec.exponents bcast_S_S128 (maxima m ρ c)) (ix1 ⟨(i 2).val / 32, hg⟩) :=
      shapeCast_apply _ shapeCasts_S128_S1x128x1 _ (ix1 ⟨(i 2).val / 32, hg⟩) (by
        rw [Shape.rowMajor_val_one, Shape.rowMajor_val_three]
        show (i 2).val / 32 = (0 * 128 + (i 2).val / 32) * 1 + 0
        omega)
    rw [eX, eS]

end Cert.KernelIdeal.HostRead

end
-- ==== Proof.RefRead.lean ====
/-
  The reference's two results, read out of its run.

  The run leaves every buffer at the fold of the 54 operations over the launch contents.  The fold is read in six
  short stretches — the reshape and the per-group maximum; the guarded maximum max>0 ? max : 1; the exponents; the
  scales; the clipped ratio; the rounding, the sign and the products — each over an arbitrary valuation of the
  buffers it reads, and the stretches are composed.  Each buffer ends at the stage function of the argument array
  that the operation-by-operation reading names (`Stages.val_…`).  In the quantizer's vocabulary: the exponents'
  buffer holds `Spec.exponents` of the per-group maxima, and the quantized array holds, entry by entry,
  `Spec.quant` of the entry and its group's scale — the reshape to [4, 4096, 128, 32] puts entry (b, r, k) of the
  argument at (b, r, k / 32, k % 32), so its group is k / 32, and the scales reach it through three broadcasts that
  keep the group coordinate.
-/
import proofs.«134607_j88175678587515_2_alg».proof.Proof.RefRun
import proofs.«134607_j88175678587515_2_alg».proof.Proof.RefStages
import proofs.«134607_j88175678587515_2_alg».proof.Proof.Spec

noncomputable section

namespace Cert.ReferenceIdeal.HostRead

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.HostRun

variable {F : FTy → Type} [FloatOps F]

/-- The contents after two lines run one after the other. -/
theorem after_append (l₁ l₂ : List (HloOp τ sig (Elt F))) (W : Valuation τ sig (Elt F)) :
    after (l₁ ++ l₂) W = after l₂ (after l₁ W) := by
  induction l₁ generalizing W with
  | nil => rfl
  | cons op l ih => exact ih _

/-! ## What each stretch leaves alone -/

theorem keepB1_v2 (W : Valuation τ sig (Elt F)) : after opsB1 W (Proc.devRef .tc main_v2) = W (Proc.devRef .tc main_v2) := by
  after_results_simp

theorem keepB1_v0 (W : Valuation τ sig (Elt F)) : after opsB1 W (Proc.devRef .tc main_v0) = W (Proc.devRef .tc main_v0) := by
  after_results_simp

theorem keepB1_arg0 (W : Valuation τ sig (Elt F)) : after opsB1 W (Proc.devRef .tc main_arg0) = W (Proc.devRef .tc main_arg0) := by
  after_results_simp

theorem keepB2_v0 (W : Valuation τ sig (Elt F)) : after opsB2 W (Proc.devRef .tc main_v0) = W (Proc.devRef .tc main_v0) := by
  after_results_simp

theorem keepB2_arg0 (W : Valuation τ sig (Elt F)) : after opsB2 W (Proc.devRef .tc main_arg0) = W (Proc.devRef .tc main_arg0) := by
  after_results_simp

theorem keepC_v0 (W : Valuation τ sig (Elt F)) : after opsC W (Proc.devRef .tc main_v0) = W (Proc.devRef .tc main_v0) := by
  after_results_simp

theorem keepC_v13 (W : Valuation τ sig (Elt F)) : after opsC W (Proc.devRef .tc main_v13) = W (Proc.devRef .tc main_v13) := by
  after_results_simp

theorem keepC_arg0 (W : Valuation τ sig (Elt F)) : after opsC W (Proc.devRef .tc main_arg0) = W (Proc.devRef .tc main_arg0) := by
  after_results_simp

theorem keepD1_v0 (W : Valuation τ sig (Elt F)) : after opsD1 W (Proc.devRef .tc main_v0) = W (Proc.devRef .tc main_v0) := by
  after_results_simp

theorem keepD1_v17 (W : Valuation τ sig (Elt F)) : after opsD1 W (Proc.devRef .tc main_v17) = W (Proc.devRef .tc main_v17) := by
  after_results_simp

theorem keepD1_v13 (W : Valuation τ sig (Elt F)) : after opsD1 W (Proc.devRef .tc main_v13) = W (Proc.devRef .tc main_v13) := by
  after_results_simp

theorem keepD1_arg0 (W : Valuation τ sig (Elt F)) : after opsD1 W (Proc.devRef .tc main_arg0) = W (Proc.devRef .tc main_arg0) := by
  after_results_simp

theorem keepD2_v13 (W : Valuation τ sig (Elt F)) : after opsD2 W (Proc.devRef .tc main_v13) = W (Proc.devRef .tc main_v13) := by
  after_results_simp

theorem keepD2_arg0 (W : Valuation τ sig (Elt F)) : after opsD2 W (Proc.devRef .tc main_arg0) = W (Proc.devRef .tc main_arg0) := by
  after_results_simp

theorem keepA_arg0 (W : Valuation τ sig (Elt F)) : after opsA W (Proc.devRef .tc main_arg0) = W (Proc.devRef .tc main_arg0) := by
  after_results_simp

/-! ## What each stretch writes, from what it reads -/

variable (W : Valuation τ sig (Elt F)) (x0 : (⟨S4x4096x4096, .f32⟩ : BufTy).Contents (Elt F))

set_option maxHeartbeats 400000 in
theorem readA_v0 (hx : W (Proc.devRef .tc main_arg0) = x0) : after opsA W (Proc.devRef .tc main_v0) = Stages.val_main_v0 x0 := by
  after_results_simp
  try simp only [TRef.toBuf, TRef.ofBuf, cast_eq]
  rw [hx]
  rfl
set_option maxHeartbeats 400000 in
theorem readA_v2 (hx : W (Proc.devRef .tc main_arg0) = x0) : after opsA W (Proc.devRef .tc main_v2) = Stages.val_main_v2 x0 := by
  after_results_simp
  try simp only [TRef.toBuf, TRef.ofBuf, cast_eq]
  rw [hx]
  rfl
/- From here on the per-group maximum stays folded: it is a fold over every index of the [4, 4096, 128, 32] array, and no
   equation below needs to look inside it. -/
attribute [local irreducible] Stages.val_main_v2

set_option maxHeartbeats 400000 in
theorem readB1_v5 (h2 : W (Proc.devRef .tc main_v2) = Stages.val_main_v2 x0) : after opsB1 W (Proc.devRef .tc main_v5) = Stages.val_main_v5 x0 := by
  after_results_simp
  try simp only [TRef.toBuf, TRef.ofBuf, cast_eq]
  rw [h2]
  rfl
set_option maxHeartbeats 400000 in
theorem readB2_v13 (h2 : W (Proc.devRef .tc main_v2) = Stages.val_main_v2 x0) (h5 : W (Proc.devRef .tc main_v5) = Stages.val_main_v5 x0) :
    after opsB2 W (Proc.devRef .tc main_v13) = Stages.val_main_v13 x0 := by
  after_results_simp
  try simp only [TRef.toBuf, TRef.ofBuf, cast_eq]
  rw [h2, h5]
  rfl
set_option maxHeartbeats 400000 in
theorem readC_v17 (h13 : W (Proc.devRef .tc main_v13) = Stages.val_main_v13 x0) : after opsC W (Proc.devRef .tc main_v17) = Stages.val_main_v17 x0 := by
  after_results_simp
  try simp only [TRef.toBuf, TRef.ofBuf, cast_eq]
  rw [h13]
  rfl
set_option maxHeartbeats 400000 in
theorem readD1_v22 (h0 : W (Proc.devRef .tc main_v0) = Stages.val_main_v0 x0) (h17 : W (Proc.devRef .tc main_v17) = Stages.val_main_v17 x0) :
    after opsD1 W (Proc.devRef .tc main_v22) = Stages.val_main_v22 x0 := by
  after_results_simp
  try simp only [TRef.toBuf, TRef.ofBuf, cast_eq]
  rw [h0, h17]
  rfl
set_option maxHeartbeats 400000 in
theorem readD2_v33 (h0 : W (Proc.devRef .tc main_v0) = Stages.val_main_v0 x0) (h17 : W (Proc.devRef .tc main_v17) = Stages.val_main_v17 x0)
    (h22 : W (Proc.devRef .tc main_v22) = Stages.val_main_v22 x0) : after opsD2 W (Proc.devRef .tc main_v33) = Stages.val_main_v33 x0 := by
  after_results_simp
  try simp only [TRef.toBuf, TRef.ofBuf, cast_eq]
  rw [h0, h17, h22]
  rfl

/-! ## The stretches composed: the fold at the two results and at the argument -/

set_option maxHeartbeats 1000000 in
theorem fold_results (V : Valuation τ sig (Elt F)) :
    after ops V (Proc.devRef .tc main_v33) = Stages.val_main_v33 (V (Proc.devRef .tc main_arg0))
    ∧ after ops V (Proc.devRef .tc main_v13) = Stages.val_main_v13 (V (Proc.devRef .tc main_arg0))
    ∧ after ops V (Proc.devRef .tc main_arg0) = V (Proc.devRef .tc main_arg0) := by
  rw [ops_split, after_append, after_append, after_append, after_append, after_append]
  have a0 := readA_v0 V (V (Proc.devRef .tc main_arg0)) rfl
  have a2 := readA_v2 V (V (Proc.devRef .tc main_arg0)) rfl
  have aX := keepA_arg0 V
  have b5 := readB1_v5 (after opsA V) _ a2
  have b2 := (keepB1_v2 (after opsA V)).trans a2
  have b0 := (keepB1_v0 (after opsA V)).trans a0
  have bX := (keepB1_arg0 (after opsA V)).trans aX
  have c13 := readB2_v13 (after opsB1 (after opsA V)) _ b2 b5
  have c0 := (keepB2_v0 (after opsB1 (after opsA V))).trans b0
  have cX := (keepB2_arg0 (after opsB1 (after opsA V))).trans bX
  have d17 := readC_v17 (after opsB2 (after opsB1 (after opsA V))) _ c13
  have d0 := (keepC_v0 (after opsB2 (after opsB1 (after opsA V)))).trans c0
  have d13 := (keepC_v13 (after opsB2 (after opsB1 (after opsA V)))).trans c13
  have dX := (keepC_arg0 (after opsB2 (after opsB1 (after opsA V)))).trans cX
  have e22 := readD1_v22 (after opsC (after opsB2 (after opsB1 (after opsA V)))) _ d0 d17
  have e0 := (keepD1_v0 (after opsC (after opsB2 (after opsB1 (after opsA V))))).trans d0
  have e17 := (keepD1_v17 (after opsC (after opsB2 (after opsB1 (after opsA V))))).trans d17
  have e13 := (keepD1_v13 (after opsC (after opsB2 (after opsB1 (after opsA V))))).trans d13
  have eX := (keepD1_arg0 (after opsC (after opsB2 (after opsB1 (after opsA V))))).trans dX
  exact ⟨readD2_v33 (after opsD1 (after opsC (after opsB2 (after opsB1 (after opsA V))))) _ e0 e17 e22,
    (keepD2_v13 (after opsD1 (after opsC (after opsB2 (after opsB1 (after opsA V)))))).trans e13,
    (keepD2_arg0 (after opsD1 (after opsC (after opsB2 (after opsB1 (after opsA V)))))).trans eX⟩

/-! ## The stages in the quantizer's vocabulary -/

set_option maxHeartbeats 400000 in
/-- The exponents' stage is `Spec.exponents` of the per-group maxima's stage. -/
theorem exponents_stage (x0 : (⟨S4x4096x4096, .f32⟩ : BufTy).Contents (Elt Ideal)) :
    Stages.val_main_v13 x0 = Spec.exponents bcast_S_S128 (Stages.val_main_v2 x0) := rfl

set_option maxHeartbeats 400000 in
/-- The scales' stage is `Spec.scales` of the exponents' stage. -/
theorem scales_stage (x0 : (⟨S4x4096x4096, .f32⟩ : BufTy).Contents (Elt Ideal)) :
    Stages.val_main_v16 x0 = Spec.scales bcast_S_S128 (Stages.val_main_v13 x0) := rfl

/-! ## The quantized array's stage, entry by entry -/

section Output
attribute [local irreducible] Stages.val_main_v0 Stages.val_main_v16

set_option maxHeartbeats 400000 in
/-- Before the last reshape: the entry at j of the [4, 4096, 128, 32] array is the quantizer applied to the reshaped
    argument's entry and to the scale the three broadcasts bring there. -/
theorem quantized_at (x0 : (⟨S4x4096x4096, .f32⟩ : BufTy).Contents (Elt Ideal)) (j : S4x4096x128x32.Idx) :
    Stages.val_main_v32 x0 j
      = Spec.quant (Stages.val_main_v0 x0 j) (Stages.val_main_v16 x0 (Stages.idx_main_v17 (Stages.idx_main_v29 (Stages.idx_main_v30 j)))) := by
  rw [Stages.val_main_v32_apply, Stages.val_main_v31_apply, Stages.val_main_v28_apply, Stages.val_main_v30_apply, Stages.val_main_v29_apply,
    Stages.val_main_v27_apply, Stages.val_main_v25_apply, Stages.val_main_v26_apply, Stages.val_main_cst_9_apply, Stages.val_main_v24_apply,
    Stages.val_main_v23_apply, Stages.val_main_cst_8_apply, Stages.val_main_v22_apply, Stages.val_main_call2_v4_apply, Stages.val_main_call2_v3_apply,
    Stages.val_main_cst_7_apply, Stages.val_main_call2_v2_apply, Stages.val_main_call2_v1_apply, Stages.val_main_call2_v0_apply,
    Stages.val_main_cst_6_apply, Stages.val_main_v21_apply, Stages.val_main_v18_apply, Stages.val_main_v20_apply, Stages.val_main_v19_apply,
    Stages.val_main_v17_apply]
  rfl

end Output

/-- The two reshapes undo each other: entry i of the result comes from entry i of the argument. -/
theorem reshape_back (i : S4x4096x4096.Idx) : Stages.idx_main_v0 (Stages.idx_main_v33 i) = i := by
  have h0 : (i 0).val < 4 := (i 0).isLt
  have h1 : (i 1).val < 4096 := (i 1).isLt
  have h2 : (i 2).val < 4096 := (i 2).isLt
  funext a
  apply Fin.ext
  match a with
  | ⟨0, _⟩ => show (((((((i 0).val * 4096 + (i 1).val) * 4096 + (i 2).val) / 16777216) * 4096 + ((((i 0).val * 4096 + (i 1).val) * 4096 + (i 2).val) / 4096 % 4096)) * 128 + ((((i 0).val * 4096 + (i 1).val) * 4096 + (i 2).val) / 32 % 128)) * 32 + ((((i 0).val * 4096 + (i 1).val) * 4096 + (i 2).val) % 32)) / 16777216 = (i 0).val; omega
  | ⟨1, _⟩ => show (((((((i 0).val * 4096 + (i 1).val) * 4096 + (i 2).val) / 16777216) * 4096 + ((((i 0).val * 4096 + (i 1).val) * 4096 + (i 2).val) / 4096 % 4096)) * 128 + ((((i 0).val * 4096 + (i 1).val) * 4096 + (i 2).val) / 32 % 128)) * 32 + ((((i 0).val * 4096 + (i 1).val) * 4096 + (i 2).val) % 32)) / 4096 % 4096 = (i 1).val; omega
  | ⟨2, _⟩ => show (((((((i 0).val * 4096 + (i 1).val) * 4096 + (i 2).val) / 16777216) * 4096 + ((((i 0).val * 4096 + (i 1).val) * 4096 + (i 2).val) / 4096 % 4096)) * 128 + ((((i 0).val * 4096 + (i 1).val) * 4096 + (i 2).val) / 32 % 128)) * 32 + ((((i 0).val * 4096 + (i 1).val) * 4096 + (i 2).val) % 32)) % 4096 = (i 2).val; omega

/-- Entry (b, r, k) of the result is in group k / 32: the scale the broadcasts bring there is the scale of that group. -/
theorem group_of (i : S4x4096x4096.Idx) (hg : (i 2).val / 32 < 128) :
    Stages.idx_main_v17 (Stages.idx_main_v29 (Stages.idx_main_v30 (Stages.idx_main_v33 i))) = ix1 ⟨(i 2).val / 32, hg⟩ := by
  have h0 : (i 0).val < 4 := (i 0).isLt
  have h1 : (i 1).val < 4096 := (i 1).isLt
  have h2 : (i 2).val < 4096 := (i 2).isLt
  funext a
  apply Fin.ext
  match a with
  | ⟨0, _⟩ => show (((i 0).val * 4096 + (i 1).val) * 4096 + (i 2).val) / 32 % 128 = (i 2).val / 32; omega

/-- The quantized result's stage at entry i: the quantizer applied to the argument's entry i and the scale of its group. -/
theorem output_stage (x0 : (⟨S4x4096x4096, .f32⟩ : BufTy).Contents (Elt Ideal)) (i : S4x4096x4096.Idx) (hg : (i 2).val / 32 < 128) :
    Stages.val_main_v33 x0 i = Spec.quant (x0 i) (Stages.val_main_v16 x0 (ix1 ⟨(i 2).val / 32, hg⟩)) := by
  rw [Stages.val_main_v33_apply, quantized_at, Stages.val_main_v0_apply, reshape_back, group_of i hg]

end Cert.ReferenceIdeal.HostRead

end
-- ==== Proof.LibKeepdims.lean ====
/-
  Reading the pieces of a softmax over a rank-3 array at an index, for any extents `a × b × c`.

  A softmax along an axis takes a maximum and a sum along that axis, puts the reduced axis back with extent one
  ("keepdims") and broadcasts it over the array again.  The lemmas here read each of those steps at an index written by
  its coordinates:

  * an `[a, b]` array cast to `[a, b, 1]` and an `[a, b, 1]` array broadcast to `[a, b, c]` (the last axis reduced);
  * an `[a, c]` array cast to `[a, 1, c]` and an `[a, 1, c]` array broadcast to `[a, b, c]` (the middle axis reduced);
  * the index over `(i, j)` with coordinate `k` inserted on the last axis is `(i, j, k)`, and over `(i, k)` with `j`
    inserted on the middle axis it is `(i, j, k)`;
  * hence, on the extended reals, a vector maximum along the last or the middle axis is the fold of `max` over that
    axis's coordinates, a vector sum the sum over them, and the host's maximum along the last axis the same fold.
-/
import Idealize.ShloMosaic.PureOps.Ideal.Laws
import Idealize.ShloMosaic.Lib.ValueIdx
import Idealize.ShloMosaic.Lib.Pipeline.Value

noncomputable section

namespace Idealize.ShloMosaic.Keepdims

open Idealize.ShloMosaic Idealize.ShloMosaic.ValueIdx

variable {α : Type} {a b c : ℕ}

/-! ## The reduced axis put back with extent one, and broadcast again -/

/-- An `[a, b]` array cast to `[a, b, 1]` reads, at `(i, j, u)`, the operand at `(i, j)`. -/
theorem shapeCast_ab_ab1_apply (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

/-- An `[a, c]` array cast to `[a, 1, c]` reads, at `(i, u, k)`, the operand at `(i, k)`. -/
theorem shapeCast_ac_a1c_apply (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]
  | ⟨2, _⟩ =>
    show k.val = if c = 1 then 0 else k.val
    split
    · have := k.isLt; omega
    · rfl

/-! ## The index with the reduced coordinate inserted -/

/-- Over `(i, j)`, with `k` inserted on the last axis: `(i, j, k)`. -/
theorem lift_last (h : (⟨3, ![a, b, c]⟩ : Shape).Reduces [2] ⟨2, ![a, b]⟩) (i : Fin a) (j : Fin b) (k : Fin c) :
    h.lift (ix2 i j) k = ix3 i j k := by
  funext ax
  apply Fin.ext
  match ax with
  | ⟨0, _⟩ => rfl
  | ⟨1, _⟩ => rfl
  | ⟨2, _⟩ => rfl

/-- Over `(i, k)`, with `j` inserted on the middle axis: `(i, j, k)`. -/
theorem lift_middle (h : (⟨3, ![a, b, c]⟩ : Shape).Reduces [1] ⟨2, ![a, c]⟩) (i : Fin a) (j : Fin b) (k : Fin c) :
    h.lift (ix2 i k) j = ix3 i j k := by
  funext ax
  apply Fin.ext
  match ax with
  | ⟨0, _⟩ => rfl
  | ⟨1, _⟩ => rfl
  | ⟨2, _⟩ => rfl

/-! ## Maxima and sums along one axis, on the extended reals -/

variable {φ : FTy}

/-- A vector maximum along the last axis, at `(i, j)`: the fold of `max` from the accumulator's value over `k`. -/
theorem multiReduction_max_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ)
    (i : Fin a) (j : Fin b) :
    multiReduction .maximumf [2] ⟨2, ![a, b]⟩ src acc h hφ hacc (ix2 i j)
      = (Finset.univ : Finset (Fin c)).fold max (Ideal.ofBits φ acc) fun k => src (ix3 i j k) := by
  refine (Ideal.multiReduction_maximumf_single src acc h hφ hacc (ix2 i j)).trans ?_
  refine congrArg (Finset.fold max (Ideal.ofBits φ acc) · Finset.univ) (funext fun k => ?_)
  exact congrArg src (lift_last h i j k)

/-- A vector sum along the last axis, at `(i, j)`: the sum over `k`. -/
theorem multiReduction_add_last (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  exact Finset.sum_congr rfl fun k _ => congrArg src (lift_last h i j k)

/-- A vector maximum along the middle axis, at `(i, k)`: the fold of `max` from the accumulator's value over `j`. -/
theorem multiReduction_max_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ)
    (i : Fin a) (k : Fin c) :
    multiReduction .maximumf [1] ⟨2, ![a, c]⟩ src acc h hφ hacc (ix2 i k)
      = (Finset.univ : Finset (Fin b)).fold max (Ideal.ofBits φ acc) fun j => src (ix3 i j k) := by
  refine (Ideal.multiReduction_maximumf_single src acc h hφ hacc (ix2 i k)).trans ?_
  refine congrArg (Finset.fold max (Ideal.ofBits φ acc) · Finset.univ) (funext fun j => ?_)
  exact congrArg src (lift_middle h i j k)

/-- A vector sum along the middle axis, at `(i, k)`: the sum over `j`. -/
theorem multiReduction_add_middle (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  exact Finset.sum_congr rfl fun j _ => congrArg src (lift_middle h i j k)

/-- The host's maximum along the last axis, at `(i, j)`: the fold of `max` from the initial value over `k`. -/
theorem hostReduce_max_last {u : Shape} (x : (⟨3, ![a, b, c]⟩ : Shape).Idx → Ideal φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce (FloatOps.maximumf (F := Ideal) (φ := φ)) x init h' hu (ix2 i j)
      = (Finset.univ : Finset (Fin c)).fold max (init (Shape.Idx.first hu)) fun k => x (ix3 i j k) := by
  refine (Host.reduce_eq_fold_single (FloatOps.maximumf (F := Ideal) (φ := φ)) x init h' h hu (ix2 i j)).trans ?_
  refine congrArg (Finset.fold max (init (Shape.Idx.first hu)) · Finset.univ) (funext fun k => ?_)
  exact congrArg x (lift_last h i j k)

end Idealize.ShloMosaic.Keepdims

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.GroupMax.lean ====
/-
  The first pallas_call: the per-group maximum of |x|, carried over 64 grid points.

  Point t loads rows 256·t … 256·t+255 of the [16384, 128, 32] input and holds the [1, 128] output block in place
  (its block index never moves; it is written back once, after the last point).  At the first point the body
  stores zeros into the block before anything else; at every point it then stores, for each group g,
      max( what the block holds at g ,  max over the 256 rows and 32 lanes of |x(row, g, lane)| ),
  the inner maxima taken from −∞.  A maximum is carried here by what it is bounded by: a value of the block is
  ≤ c exactly when 0 ≤ c and every |x| seen so far in that group is ≤ c (`running_le`, by induction on the point).
  After the last point every row has been seen, and the array ends at the last point's block (`final`, `final_le`).
-/
import proofs.«134607_j88175678587515_2_alg».proof.Proof.Gen.KernelIdeal.Frame
import proofs.«134607_j88175678587515_2_alg».proof.Proof.LibKeepdims
import proofs.«134607_j88175678587515_2_alg».proof.Proof.LibRowMax
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.GroupMax

open Idealize.ShloMosaic Idealize.ShloMosaic.TcCoe Idealize.ShloMosaic.Tactic Idealize.SL.Sem Idealize.ShloMosaic.ValueIdx
open Idealize.ShloMosaic.Pipeline (Dat)
open Cert.KernelIdeal Cert.KernelIdeal.Gen

theorem zero2 : (![0, 0] : Fin 2 → Nat) = fun _ => 0 := funext fun a => by fin_cases a <;> rfl
theorem zero3 : (![0, 0, 0] : Fin 3 → Nat) = fun _ => 0 := funext fun a => by fin_cases a <;> rfl

/-! ## What each case of the body leaves in the output block -/

section Pieces
variable {F : FTy → Type} [FloatOps F]

set_option maxHeartbeats 1000000 in
/-- At the first point the block is zeroed, read back, and overwritten with the maximum against the loaded rows. -/
theorem out_first (c : Dev nD) (i : grid0.Coords) (arg1 : Memref sig .tc .vmem S256x128x32 .f32) (harg1 : arg1.IsWhole)
    (arg2 : Memref sig .tc .vmem S1x128 .f32) (harg2 : arg2.IsWhole) (hc0 : cond0_0 i) (x0 : Vec F S256x128x32 .f32) :
    out0_A_1 c i arg1 harg1 arg2 harg2 hc0 x0 = k0_pay2 x0 (k0_pay1 (F := F)) := by
  unfold out0_A_1
  rw [View.read_writes_eq_canon _ _ _ (cover0_A_1 c i arg1 harg1 arg2 harg2 hc0 x0)]
  unfold kernelRun0_A
  dsimp only
  sl_unfold_words
  rw [View.canon_cons_unit_zero zero2, View.readCov_unit_zero _ zero2]
  simp only [View.readAt_eq_ld, harg1.read_unread, View.ld_unit_zero (S := S256x128x32) zero3]

set_option maxHeartbeats 1000000 in
/-- At a later point the block is overwritten with the maximum of what it held and the loaded rows. -/
theorem out_later (c : Dev nD) (i : grid0.Coords) (arg1 : Memref sig .tc .vmem S256x128x32 .f32) (harg1 : arg1.IsWhole)
    (arg2 : Memref sig .tc .vmem S1x128 .f32) (harg2 : arg2.IsWhole) (hc0 : ¬cond0_0 i) (x0 : Vec F S256x128x32 .f32)
    (xo1 : Vec F S1x128 .f32) :
    out0_B_1 c i arg1 harg1 arg2 harg2 hc0 x0 xo1 = k0_pay2 x0 xo1 := by
  unfold out0_B_1
  rw [View.read_writes_eq_canon _ _ _ (cover0_B_1 c i arg1 harg1 arg2 harg2 hc0 x0 xo1)]
  unfold kernelRun0_B
  dsimp only
  rw [View.canon_unit_zero zero2]
  simp only [View.readAt_eq_ld, harg1.read_unread, harg2.read_unread, View.ld_unit_zero (S := S256x128x32) zero3,
    View.ld_unit_zero (S := S1x128) zero2]

end Pieces

/-! ## The stored maximum, by what bounds it -/

/-- The word 0xFF800000 is −∞, the least extended real. -/
theorem neg_inf : Ideal.ofBits .f32 0xFF800000#32 = ⊥ := by simp [Ideal.ofBits, Ideal.ieee]

/-- |x| on the extended reals. -/
abbrev mag (x : EReal) : EReal := max x (-x)

theorem mag_nonneg (x : EReal) : 0 ≤ mag x := by
  rcases le_total 0 x with h | h
  · exact le_max_of_le_left h
  · exact le_max_of_le_right (by simpa using EReal.neg_le_neg_iff.mpr h)

/-- The value stored for group g: the maximum of the block's previous value at g and of |x| over the 256 loaded rows
    and 32 lanes of group g, the inner maxima taken from −∞. -/
theorem pay_apply (x : Vec Ideal S256x128x32 .f32) (acc : Vec Ideal S1x128 .f32) (g : Fin 128) :
    k0_pay2 (F := Ideal) x acc (ix2 0 g)
      = max (acc (ix2 0 g)) ((Finset.univ : Finset (Fin 256)).fold max ⊥ fun r =>
          (Finset.univ : Finset (Fin 32)).fold max ⊥ fun l => mag (x (ix3 r g l))) := by
  unfold k0_pay2
  simp only [shapeCast_self, maximumf_apply]
  refine congrArg (max (acc (ix2 0 g))) ?_
  refine (shapeCast_a_1a_apply _ _ 0 g).trans ?_
  refine (Cert.LibRowMax.multiReduction_max_first _ _ _ _ _ g).trans ?_
  rw [neg_inf]
  refine congrArg (fun f => Finset.fold max ⊥ f Finset.univ) (funext fun r => ?_)
  refine (Keepdims.multiReduction_max_last _ _ _ _ _ r g).trans ?_
  rw [neg_inf]
  rfl

/-- The value stored for group g is ≤ c iff the block's previous value at g and every |x| of group g among the 256
    loaded rows are. -/
theorem pay_le (x : Vec Ideal S256x128x32 .f32) (acc : Vec Ideal S1x128 .f32) (g : Fin 128) (cst : EReal) :
    k0_pay2 (F := Ideal) x acc (ix2 0 g) ≤ cst
      ↔ acc (ix2 0 g) ≤ cst ∧ ∀ (r : Fin 256) (l : Fin 32), mag (x (ix3 r g l)) ≤ cst := by
  rw [pay_apply, max_le_iff, Finset.fold_max_le]
  simp only [Finset.fold_max_le, bot_le, true_and, Finset.mem_univ, forall_true_left]

/-! ## The rows a point loads -/

variable (V : (c : Dev nD) → (b : Ref sig .tc) → Buf (Elt Ideal) ((c : Thread nD τ).loc b))

theorem block_indices : ∀ t : Fin cfg0.N, win0_0.index t (0 : Fin 3) = t.val ∧ win0_0.index t (1 : Fin 3) = 0
    ∧ win0_0.index t (2 : Fin 3) = 0 :=
  (by decide +kernel : ∀ t : Fin grid0.N, _)

/-- Row r of point t's block is row 256·t + r of the array. -/
theorem block_read (c : Dev nD) (t : Fin cfg0.N) (r : Fin 256) (g : Fin 128) (l : Fin 32) (h : 256 * t.val + r.val < 16384) :
    iblk0 V c 0 t (ix3 r g l) = V c main_v0 (ix3 ⟨256 * t.val + r.val, h⟩ g l) := by
  show V c main_v0 (((cfg0.win 0).blk t).view.emb (ix3 r g l)) = _
  obtain ⟨e0, e1, e2⟩ := block_indices t
  refine congrArg (V c main_v0) (funext fun a => Fin.ext ?_)
  match a with
  | ⟨0, _⟩ => show win0_0.index t (0 : Fin 3) * 256 + 1 * r.val = 256 * t.val + r.val; omega
  | ⟨1, _⟩ => show win0_0.index t (1 : Fin 3) * 128 + 1 * g.val = g.val; omega
  | ⟨2, _⟩ => show win0_0.index t (2 : Fin 3) * 32 + 1 * l.val = l.val; omega

/-- Ranging over the 256 rows of point t's block is ranging over the array's rows N with N / 256 = t. -/
theorem block_forall (c : Dev nD) (t : Fin cfg0.N) (g : Fin 128) (P : EReal → Prop) :
    (∀ (r : Fin 256) (l : Fin 32), P (iblk0 V c 0 t (ix3 r g l)))
      ↔ ∀ (N : Fin 16384) (l : Fin 32), N.val / 256 = t.val → P (V c main_v0 (ix3 N g l)) := by
  have ht : t.val < 64 := lt_of_lt_of_eq t.isLt (show cfg0.N = 64 from N_0)
  constructor
  · intro h N l hN
    have hNlt : N.val < 16384 := N.isLt
    have hlt : 256 * t.val + N.val % 256 < 16384 := by omega
    have := h ⟨N.val % 256, Nat.mod_lt _ (by norm_num)⟩ l
    rw [block_read V c t ⟨N.val % 256, Nat.mod_lt _ (by norm_num)⟩ g l hlt] at this
    have e : (⟨256 * t.val + N.val % 256, hlt⟩ : Fin 16384) = N := Fin.ext (by show 256 * t.val + N.val % 256 = N.val; omega)
    rwa [e] at this
  · intro h r l
    have hr : r.val < 256 := r.isLt
    have hlt : 256 * t.val + r.val < 16384 := by omega
    rw [block_read V c t r g l hlt]
    exact h ⟨256 * t.val + r.val, hlt⟩ l (by show (256 * t.val + r.val) / 256 = t.val; omega)

/-- The zeros the first point stores. -/
theorem first_zero (g : Fin 128) : k0_pay1 (F := Ideal) (ix2 (0 : Fin 1) g) = 0 := IdealRules.sign_bit.ideal_zero .f32

/-! ## The running maximum -/

/-- After point n the block's value for group g is ≤ c iff 0 ≤ c and every |x| of group g in the rows loaded so far
    (rows N with N / 256 ≤ n) is ≤ c. -/
theorem running_le (c : Dev nD) (g : Fin 128) (cst : EReal) : ∀ (n : ℕ) (hn : n < cfg0.N),
    outsAt0 V c n hn (ix2 0 g) ≤ cst
      ↔ (0 : EReal) ≤ cst ∧ ∀ (N : Fin 16384) (l : Fin 32), N.val / 256 ≤ n → mag (V c main_v0 (ix3 N g l)) ≤ cst
  | 0, hn => by
    rw [show outsAt0 V c 0 hn = _ from outsAt0_A V c ⟨0, hn⟩ rfl, out_first, pay_le, first_zero,
      block_forall V c ⟨0, hn⟩ g (fun v => mag v ≤ cst)]
    exact and_congr_right fun _ => forall₂_congr fun N l => ⟨fun h hN => h (Nat.le_zero.mp hN), fun h hN => h (le_of_eq hN)⟩
  | n + 1, hn => by
    have hN : n + 1 < 64 := lt_of_lt_of_eq hn (show cfg0.N = 64 from N_0)
    have ih := running_le c g cst n (Nat.lt_of_succ_lt hn)
    rw [show outsAt0 V c (n + 1) hn = _ from outsAt0_B V c ⟨n + 1, hn⟩ (by show ¬(n + 1) % 64 = 0; omega), out_later, pay_le,
      block_forall V c ⟨n + 1, hn⟩ g (fun v => mag v ≤ cst)]
    refine Iff.trans (and_congr ih Iff.rfl) ?_
    constructor
    · rintro ⟨⟨h0, h1⟩, h2⟩
      exact ⟨h0, fun N l hNl => (Nat.lt_or_ge (N.val / 256) (n + 1)).elim (fun h => h1 N l (by omega))
        (fun h => h2 N l (by show N.val / 256 = n + 1; omega))⟩
    · rintro ⟨h0, h⟩
      exact ⟨⟨h0, fun N l hNl => h N l (by omega)⟩, fun N l hNl => h N l (by have : N.val / 256 = n + 1 := hNl; omega)⟩

/-! ## The array after the region -/

theorem out_indices : ∀ t : Fin cfg0.N, win0_1.index t (0 : Fin 2) = 0 ∧ win0_1.index t (1 : Fin 2) = 0 :=
  (by decide +kernel : ∀ t : Fin grid0.N, _)

theorem last_lt : 63 < cfg0.N := by rw [show cfg0.N = 64 from N_0]; norm_num

/-- The [1, 128] output array after the region is what the last point left in the block: the block is the whole array
    and is written back once, after point 63. -/
theorem final (c : Dev nD) : (dat0 (F := Ideal) V c).arrAt 1 cfg0.N = outsAt0 V c 63 last_lt := by
  refine (dat0 (F := Ideal) V c).arrAt_eq_of_cover 1 (outsAt0 V c 63 last_lt) (fun t hf => ?_) (fun i => ?_)
  · have h63 : t.val % 64 = 63 := (flush0_1 t).mp hf
    have htl : t.val < 64 := lt_of_lt_of_eq t.isLt (show cfg0.N = 64 from N_0)
    obtain ⟨tv, ht⟩ := t
    have e : tv = 63 := by have : tv % 64 = 63 := h63; have : tv < 64 := htl; omega
    subst e
    show (cfg0.win 1).cut (grid0.coords ⟨63, ht⟩) ((dat0 V c).after 1 ⟨63, ht⟩) = _
    rw [after0_1]
    obtain ⟨e0, e1⟩ := out_indices ⟨63, ht⟩
    funext y
    show outsAt0 V c 63 ht y = outsAt0 V c 63 last_lt (((cfg0.win 1).blk ⟨63, ht⟩).view.emb y)
    refine congrArg (outsAt0 V c 63 last_lt) (funext fun a => Fin.ext ?_)
    match a with
    | ⟨0, _⟩ => show (y 0).val = win0_1.index ⟨63, ht⟩ (0 : Fin 2) * 1 + 1 * (y 0).val; omega
    | ⟨1, _⟩ => show (y 1).val = win0_1.index ⟨63, ht⟩ (1 : Fin 2) * 128 + 1 * (y 1).val; omega
  · refine ⟨⟨63, last_lt⟩, (flush0_1 _).mpr (by show 63 % 64 = 63; norm_num), ?_⟩
    show i ∈ ((View.whole main_v1).slice (win0_1.rect ⟨63, last_lt⟩)).set
    rw [View.set_slice_whole, Rect.mem_set_unit]
    obtain ⟨e0, e1⟩ := out_indices ⟨63, last_lt⟩
    have h0 : (i 0).val < 1 := (i 0).isLt
    have h1 : (i 1).val < 128 := (i 1).isLt
    intro a
    match a with
    | ⟨0, _⟩ =>
      show win0_1.index ⟨63, last_lt⟩ (0 : Fin 2) * 1 ≤ (i 0).val ∧ (i 0).val < win0_1.index ⟨63, last_lt⟩ (0 : Fin 2) * 1 + 1
      omega
    | ⟨1, _⟩ =>
      show win0_1.index ⟨63, last_lt⟩ (1 : Fin 2) * 128 ≤ (i 1).val ∧ (i 1).val < win0_1.index ⟨63, last_lt⟩ (1 : Fin 2) * 128 + 128
      omega

/-- The [1, 128] output array after the region, as an array of extended reals. -/
def maxArray (c : Dev nD) : S1x128.Idx → EReal := (dat0 (F := Ideal) V c).arrAt 1 cfg0.N

/-- The array's value for group g is ≤ c iff 0 ≤ c and every |x| of group g, in every row and lane, is ≤ c. -/
theorem final_le (c : Dev nD) (g : Fin 128) (cst : EReal) :
    maxArray V c (ix2 0 g) ≤ cst
      ↔ (0 : EReal) ≤ cst ∧ ∀ (N : Fin 16384) (l : Fin 32), mag (V c main_v0 (ix3 N g l)) ≤ cst := by
  unfold maxArray
  rw [final]
  refine Iff.trans (running_le V c g cst 63 last_lt) ?_
  exact and_congr_right fun _ => forall₂_congr fun N l =>
    ⟨fun h => h (by have := N.isLt; omega), fun h _ => h⟩

end Cert.KernelIdeal.GroupMax

end
-- ==== Proof.Agree.lean ====
/-
  The two per-group maxima are one.

  The kernel's maximum for group g is carried by what bounds it: it is ≤ c iff 0 ≤ c and every |x| of the group is ≤ c
  (`GroupMax.final_le`).  The reference's is a maximum from −∞ over the indices (b, r, g, l) of the [4, 4096, 128, 32]
  reshape: it is ≤ c iff every |x| of the group is ≤ c (`ref_max_le`).  The two reshapes enumerate the same entries of
  the argument — row N = 4096·b + r of the [16384, 128, 32] array is (b, r) of the other (`row_of`) — and the group is
  not empty, so some |x| ≥ 0 is ≤ c and the kernel's extra condition 0 ≤ c holds by itself.  Two extended reals with the
  same upper bounds are equal.
-/
import proofs.«134607_j88175678587515_2_alg».proof.Proof.KernelRead
import proofs.«134607_j88175678587515_2_alg».proof.Proof.GroupMax
import proofs.«134607_j88175678587515_2_alg».proof.Proof.RefRead
import Idealize.ShloMosaic.PureOps.Ideal.Laws

set_option maxRecDepth 16384

noncomputable section

namespace Cert.Agree

open Idealize.ShloMosaic Idealize.ShloMosaic.TcCoe Idealize.SL.Sem Idealize.ShloMosaic.ValueIdx
open Cert.KernelIdeal.GroupMax (mag mag_nonneg)

/-- The reference's maximum for group g is ≤ c iff |x| is, at every index of the [4, 4096, 128, 32] reshape whose third
    coordinate is g. -/
theorem ref_max_le (x0 : (⟨Cert.ReferenceIdeal.S4x4096x4096, .f32⟩ : BufTy).Contents (Elt Ideal)) (g : Fin 128) (cst : EReal) :
    Cert.ReferenceIdeal.Stages.val_main_v2 (F := Ideal) x0 (ix1 g) ≤ cst
      ↔ ∀ i : Cert.ReferenceIdeal.S4x4096x128x32.Idx, (i 2).val = g.val → mag (x0 (Cert.ReferenceIdeal.Stages.idx_main_v0 i)) ≤ cst := by
  unfold Cert.ReferenceIdeal.Stages.val_main_v2
  rw [Host.reduce_eq_fold]
  refine Iff.trans (Finset.fold_max_le (b := _) (f := _) (s := _) (c := cst)) ?_
  have hbot : Cert.ReferenceIdeal.Stages.val_main_cst (F := Ideal) (Shape.Idx.first Cert.ReferenceIdeal.Facts₀.h_S_) = ⊥ := Cert.KernelIdeal.GroupMax.neg_inf
  rw [hbot]
  simp only [bot_le, true_and, Finset.mem_filter, Finset.mem_univ]
  refine forall_congr' fun i => ?_
  have hd : (Cert.ReferenceIdeal.Facts₀.reducesTo_S4x4096x128x32_S128_d0_1_3.drop i (0 : Fin 1) : Nat) = (i 2).val :=
    Shape.ReducesTo.drop_apply_val_of_eq _ i 0 2
  have hv : Cert.ReferenceIdeal.Stages.val_main_v1 (F := Ideal) x0 i = mag (x0 (Cert.ReferenceIdeal.Stages.idx_main_v0 i)) := by
    rw [Cert.ReferenceIdeal.Stages.val_main_v1_apply, Cert.ReferenceIdeal.Stages.val_main_v0_apply]; rfl
  rw [hv]
  refine imp_congr_left ?_
  constructor
  · intro h
    have := congrArg (fun j : Cert.ReferenceIdeal.S128.Idx => (j 0).val) h
    exact hd.symm.trans this
  · intro h
    funext b
    match b with
    | ⟨0, _⟩ => exact Fin.ext (hd.trans h)

/-- Row N, group g, lane l of the [16384, 128, 32] reshape is entry (N / 4096, N % 4096, g, l) of the [4, 4096, 128, 32] one. -/
theorem row_of (x0 : (⟨Cert.ReferenceIdeal.S4x4096x4096, .f32⟩ : BufTy).Contents (Elt Ideal))
    (h : Cert.KernelIdeal.S4x4096x4096.ShapeCasts Cert.KernelIdeal.S16384x128x32) (N : Fin 16384) (g : Fin 128) (l : Fin 32)
    (hb : N.val / 4096 < 4) (hs : N.val % 4096 < 4096) :
    shapeCast Cert.KernelIdeal.S16384x128x32 x0 h (ix3 N g l)
      = x0 (Cert.ReferenceIdeal.Stages.idx_main_v0 (ix4 ⟨N.val / 4096, hb⟩ ⟨N.val % 4096, hs⟩ g l)) := by
  have hN : N.val < 16384 := N.isLt
  have hgl : g.val < 128 := g.isLt
  have hl : l.val < 32 := l.isLt
  refine shapeCast_apply x0 h _ _ ?_
  rw [Shape.rowMajor_val_three, Shape.rowMajor_val_three]
  show ((((((N.val / 4096) * 4096 + N.val % 4096) * 128 + g.val) * 32 + l.val)) / 16777216 * 4096 + (((((N.val / 4096) * 4096 + N.val % 4096) * 128 + g.val) * 32 + l.val)) / 4096 % 4096) * 4096 + (((((N.val / 4096) * 4096 + N.val % 4096) * 128 + g.val) * 32 + l.val)) % 4096 = (N.val * 128 + g.val) * 32 + l.val
  omega

variable (m : (ℓ : Loc Cert.KernelIdeal.nD Cert.KernelIdeal.τ Cert.KernelIdeal.sig) → Buf (Elt Ideal) ℓ) (ρ : Dev Cert.KernelIdeal.nD → PrngReg)

/-- The kernel's per-group maxima are the reference's. -/
theorem maxima_agree (c : Dev Cert.KernelIdeal.nD) :
    Cert.KernelIdeal.HostRead.maxima m ρ c
      = Cert.ReferenceIdeal.Stages.val_main_v2 (F := Ideal) (m ((c.tc : Thread Cert.KernelIdeal.nD Cert.KernelIdeal.τ).loc Cert.KernelIdeal.main_arg0)) := by
  funext j
  obtain ⟨g, rfl⟩ : ∃ g : Fin 128, j = ix1 g := ⟨j 0, eq_ix1 j⟩
  refine eq_of_forall_ge_iff fun cst => ?_
  rw [ref_max_le]
  have hL : Cert.KernelIdeal.HostRead.maxima m ρ c (ix1 g) = Cert.KernelIdeal.GroupMax.maxArray (Cert.KernelIdeal.Gen.V1 m ρ) c (ix2 0 g) := by
    unfold Cert.KernelIdeal.HostRead.maxima Cert.KernelIdeal.GroupMax.maxArray
    refine (shapeCast_1a_a_apply _ _ g).trans ?_
    exact congrFun (Cert.KernelIdeal.Gen.W2_arr m ρ c 1) (ix2 0 g)
  rw [hL, Cert.KernelIdeal.GroupMax.final_le]
  have hX : ∀ (N : Fin 16384) (l : Fin 32) (hb : N.val / 4096 < 4) (hs : N.val % 4096 < 4096),
      Cert.KernelIdeal.Gen.V1 m ρ c Cert.KernelIdeal.main_v0 (ix3 N g l)
        = m ((c.tc : Thread Cert.KernelIdeal.nD Cert.KernelIdeal.τ).loc Cert.KernelIdeal.main_arg0)
            (Cert.ReferenceIdeal.Stages.idx_main_v0 (ix4 ⟨N.val / 4096, hb⟩ ⟨N.val % 4096, hs⟩ g l)) := fun N l hb hs => by
    rw [show Cert.KernelIdeal.Gen.V1 m ρ c Cert.KernelIdeal.main_v0 = _ from Cert.KernelIdeal.HostRead.reshaped_input m ρ c]
    exact row_of _ _ N g l hb hs
  constructor
  · rintro ⟨-, h⟩ i hi
    have h0 : (i 0).val < 4 := (i 0).isLt
    have h1 : (i 1).val < 4096 := (i 1).isLt
    have hN : (i 0).val * 4096 + (i 1).val < 16384 := by omega
    have hb : ((i 0).val * 4096 + (i 1).val) / 4096 < 4 := by omega
    have hs : ((i 0).val * 4096 + (i 1).val) % 4096 < 4096 := by omega
    have := h ⟨(i 0).val * 4096 + (i 1).val, hN⟩ (i 3)
    rw [hX ⟨(i 0).val * 4096 + (i 1).val, hN⟩ (i 3) hb hs] at this
    have e : (ix4 ⟨((i 0).val * 4096 + (i 1).val) / 4096, hb⟩ ⟨((i 0).val * 4096 + (i 1).val) % 4096, hs⟩ g (i 3)
        : Cert.ReferenceIdeal.S4x4096x128x32.Idx) = i := by
      funext a
      apply Fin.ext
      match a with
      | ⟨0, _⟩ => show ((i 0).val * 4096 + (i 1).val) / 4096 = (i 0).val; omega
      | ⟨1, _⟩ => show ((i 0).val * 4096 + (i 1).val) % 4096 = (i 1).val; omega
      | ⟨2, _⟩ => exact hi.symm
      | ⟨3, _⟩ => rfl
    rwa [e] at this
  · intro h
    refine ⟨(mag_nonneg _).trans (h (ix4 0 0 g 0) rfl), fun N l => ?_⟩
    have hN : N.val < 16384 := N.isLt
    rw [hX N l (by omega) (Nat.mod_lt _ (by norm_num))]
    exact h _ rfl

end Cert.Agree

end
-- ==== Proof.lean ====
/-
  An activation quantizer with one power-of-two scale per group of 32 consecutive entries of the last axis, the scale
  taken from the maximum of |x| over the WHOLE group (every row), against its plain reference.

  Both programs compute, for the argument x : [4, 4096, 4096] viewed as 16384 rows × 128 groups × 32 lanes,
      A(g) = max |x| over group g;   e(g) = floor(log A(g) / log 2) if A(g) > 0 else 0;   s(g) = exp(ln2 · e(g));
      q = (sign x · s(g)) · (roundeven(min(1, max(0, |x| / s(g))) · 8) / 8),
  and return q (in the argument's shape) and e.  They differ in two places, and each is an equality on all extended
  reals, so the precondition is never opened:
    · the kernel finds A(g) in a first pallas_call that carries max(0, ·) over 64 blocks of 256 rows, the reference by
      one reduction from −∞ over the axes [0, 1, 3] of the [4, 4096, 128, 32] reshape: the same number, because |x| ≥ 0 and
      no group is empty (Proof/GroupMax.lean, Proof/Agree.lean);
    · the kernel's second pallas_call builds sign x from two comparisons and a select, the reference applies the sign
      function: one function (Proof/Spec.lean `sign_select`; the rewrite of the kernel's sign-bit arithmetic into those
      comparisons is the ideal pass's one ledger entry, `preserves`).
  Everything else is the same operations in the same order, read through reshapes and broadcasts that keep every entry
  with its group (Proof/Quantize.lean, Proof/KernelRead.lean for the kernel; Proof/RefRead.lean for the reference).
  The three frames are the generated ones; the reference's is its run with the results dropped.
-/
import proofs.«134607_j88175678587515_2_alg».proof.Defs
import proofs.«134607_j88175678587515_2_alg».proof.Proof.Gen.Kernel
import proofs.«134607_j88175678587515_2_alg».proof.Proof.Gen.Kernel.Skeleton
import proofs.«134607_j88175678587515_2_alg».proof.Proof.Gen.Kernel.Launch
import proofs.«134607_j88175678587515_2_alg».proof.Proof.Gen.Kernel.Points
import proofs.«134607_j88175678587515_2_alg».proof.Proof.Gen.Kernel.Frame
import proofs.«134607_j88175678587515_2_alg».proof.Proof.Gen.KernelIdeal
import proofs.«134607_j88175678587515_2_alg».proof.Proof.Gen.KernelIdeal.Skeleton
import proofs.«134607_j88175678587515_2_alg».proof.Proof.Gen.KernelIdeal.Launch
import proofs.«134607_j88175678587515_2_alg».proof.Proof.Gen.KernelIdeal.Points
import proofs.«134607_j88175678587515_2_alg».proof.Proof.Gen.KernelIdeal.Frame
import proofs.«134607_j88175678587515_2_alg».proof.Proof.Gen.ReferenceIdeal
import proofs.«134607_j88175678587515_2_alg».proof.Proof.Gen.Pre_finite_inputs
import proofs.«134607_j88175678587515_2_alg».proof.Proof.Boundary
import proofs.«134607_j88175678587515_2_alg».proof.Proof.KernelRead
import proofs.«134607_j88175678587515_2_alg».proof.Proof.RefRun
import proofs.«134607_j88175678587515_2_alg».proof.Proof.RefRead
import proofs.«134607_j88175678587515_2_alg».proof.Proof.Agree
import Idealize.ShloMosaic.Adequacy
import Idealize.ShloMosaic.Init

noncomputable section

namespace Cert.Proof

open Idealize.ShloMosaic Idealize.SL.Sem Idealize.ShloMosaic.StableHlo

/-- The word-level kernel runs and leaves its argument alone: the generated frame. -/
theorem frame_kernel : @Cert.frame_Kernel Cert.Kernel.Gen.facts Cert.Pre_finite_inputs.Gen.facts :=
  fun m ρ _ => Cert.Kernel.Gen.frame m ρ

/-- The idealized kernel likewise. -/
theorem frame_kernelIdeal : @Cert.frame_KernelIdeal Cert.KernelIdeal.Gen.facts Cert.Pre_finite_inputs.Gen.facts :=
  fun m ρ _ => Cert.KernelIdeal.Gen.frame m ρ

/-- The reference is a straight line of host operations, none of which writes the argument. -/
theorem frame_referenceIdeal : @Cert.frame_ReferenceIdeal Cert.ReferenceIdeal.Gen.facts Cert.Pre_finite_inputs.Gen.facts :=
  fun m ρ _ => (θ_run Cert.ReferenceIdeal.defs _ _).mono
    (fun _ h c => (h c Cert.ReferenceIdeal.main_arg0).trans (Cert.ReferenceIdeal.HostRead.fold_results _).2.2)
    (Cert.ReferenceIdeal.HostRun.run (F := Ideal) m ρ)

/-- The ledger's one entry: "1.0 carrying x's sign bit" is −1 below zero and 1 elsewhere on the extended reals, and is
    ±1.0's word by the sign bit at the word level. -/
theorem preserves : Cert.preserves_Kernel_KernelIdeal :=
  IdealRules.sign_bit.statement _ .f32

/-- From memories that agree on the argument, both programs end with the same quantized array and the same exponents. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Gen.W9 m ρ c (Proc.devRef .tc Cert.KernelIdeal.main_v19),
    fun c => Cert.KernelIdeal.Gen.W9 m ρ c (Proc.devRef .tc Cert.KernelIdeal.main_v13),
    Cert.KernelIdeal.Boundary.run_named m ρ, ?_⟩
  refine (θ_run Cert.ReferenceIdeal.defs _ _).mono (fun r h c => ?_) (Cert.ReferenceIdeal.HostRun.run (F := Ideal) m' ρ')
  obtain ⟨f33, f13, fX⟩ := Cert.ReferenceIdeal.HostRead.fold_results (launchContents m' c)
  have hx : launchContents m' c (Proc.devRef .tc Cert.ReferenceIdeal.main_arg0)
      = m ((c.tc : Thread Cert.KernelIdeal.nD Cert.KernelIdeal.τ).loc Cert.KernelIdeal.main_arg0) := hagree c
  have hmax := (Cert.Agree.maxima_agree m ρ c).symm
  refine ⟨?_, ?_, (h c Cert.ReferenceIdeal.main_arg0).trans fX⟩
  · refine (h c Cert.ReferenceIdeal.main_v33).trans (f33.trans ?_)
    rw [hx]
    funext i
    have h2 : (i 2).val < 4096 := (i 2).isLt
    have hg : (i 2).val / 32 < 128 := by omega
    rw [Cert.ReferenceIdeal.HostRead.output_stage _ i hg, Cert.ReferenceIdeal.HostRead.scales_stage,
      Cert.ReferenceIdeal.HostRead.exponents_stage, hmax]
    exact (Cert.KernelIdeal.HostRead.output_at m ρ c i hg).symm
  · refine (h c Cert.ReferenceIdeal.main_v13).trans (f13.trans ?_)
    rw [hx, Cert.ReferenceIdeal.HostRead.exponents_stage, hmax]
    exact (Cert.KernelIdeal.HostRead.result_exponents m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
